-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S19x10x64 : Shape := ⟨3, ![19, 10, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S19x10x64 : S_.BroadcastsInDim S19x10x64 (![] : Fin 0 → Fin S19x10x64.rank)
  reducesTo_S19x10x64_S_d0_1_2 : S19x10x64.ReducesTo [0, 1, 2] S_

variable [Facts]

def fn_part1 {F : FTy → Type} [FloatOps F] (main_v13 : IVec S_ 1) (main_v16 : IVec S19x10x64 1) : IVec S_ 1 :=
  let main_c_5 : IVec S_ 1 := constantI S_ 1 1#1
  let main_v17 : IVec S_ 1 := (fun x v => Host.reduce IntOp.andi x v reducesTo_S19x10x64_S_d0_1_2 h_S_) main_v16 main_c_5
  let main_v18 : IVec S_ 1 := andi main_v13 main_v17
  main_v18

def fn {F : FTy → Type} [FloatOps F] (main_arg0 : FVec F S8192x64 .f32) (main_arg1 : FVec F S8192x64 .f32) (main_arg2 : FVec F S19x10x64 .f32) (main_arg3 : FVec F S19x10x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S19x10x64 .f32 := Host.absf main_arg2
  let main_cst_2 : FVec F S_ .f32 := constant S_ .f32 0x7F800000#32
  let main_v10 : FVec F S19x10x64 .f32 := broadcastInDim S19x10x64 ![] bcast_S_S19x10x64 main_cst_2
  let main_v11 : IVec S19x10x64 1 := cmpf .olt main_v9 main_v10
  let main_c_3 : IVec S_ 1 := constantI S_ 1 1#1
  let main_v12 : IVec S_ 1 := (fun x v => Host.reduce IntOp.andi x v reducesTo_S19x10x64_S_d0_1_2 h_S_) main_v11 main_c_3
  let main_v13 : IVec S_ 1 := andi main_v8 main_v12
  let main_v14 : FVec F S19x10x64 .f32 := Host.absf main_arg3
  let main_cst_4 : FVec F S_ .f32 := constant S_ .f32 0x7F800000#32
  let main_v15 : FVec F S19x10x64 .f32 := broadcastInDim S19x10x64 ![] bcast_S_S19x10x64 main_cst_4
  let main_v16 : IVec S19x10x64 1 := cmpf .olt main_v14 main_v15
  fn_part1 (F := F) main_v13 main_v16
-- ==== Kernel.lean ====
abbrev S8192x64 : Shape := ⟨2, ![8192, 64]⟩
abbrev S19x10x64 : Shape := ⟨3, ![19, 10, 64]⟩
abbrev S190x64 : Shape := ⟨2, ![190, 64]⟩
abbrev S8192x190 : Shape := ⟨2, ![8192, 190]⟩
abbrev S128x64 : Shape := ⟨2, ![128, 64]⟩
abbrev S128x190 : Shape := ⟨2, ![128, 190]⟩
abbrev S128x1x64 : Shape := ⟨3, ![128, 1, 64]⟩
abbrev S1x190x64 : Shape := ⟨3, ![1, 190, 64]⟩
abbrev S128x190x64 : Shape := ⟨3, ![128, 190, 64]⟩
abbrev S8192x19x10 : Shape := ⟨3, ![8192, 19, 10]⟩

abbrev nBuf : Space → Nat
  | .hbm => 8
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S19x10x64, .f32⟩
  | .hbm, ⟨3, _⟩ => ⟨S19x10x64, .f32⟩
  | .hbm, ⟨4, _⟩ => ⟨S190x64, .f32⟩
  | .hbm, ⟨5, _⟩ => ⟨S190x64, .f32⟩
  | .hbm, ⟨6, _⟩ => ⟨S8192x190, .f32⟩
  | .hbm, ⟨7, _⟩ => ⟨S8192x19x10, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S190x64, .f32⟩
  | .local _ .vmem, ⟨5, _⟩ => ⟨S190x64, .f32⟩
  | .local _ .vmem, ⟨6, _⟩ => ⟨S128x190, .f32⟩
  | .local _ .vmem, ⟨7, _⟩ => ⟨S128x190, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S190x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S190x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x190 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S19x10x64_S190x64 : S19x10x64.ShapeCasts S190x64
  inb_S128x64_S128x64_0_0 : ∀ a, (![0, 0] : Fin 2 → Nat) a + S128x64.size a ≤ S128x64.size a
  h_S128x64 : 0 < S128x64.numel
  inb_S190x64_S190x64_0_0 : ∀ a, (![0, 0] : Fin 2 → Nat) a + S190x64.size a ≤ S190x64.size a
  h_S190x64 : 0 < S190x64.numel
  shapeCasts_S190x64_S190x64 : S190x64.ShapeCasts S190x64
  shapeCasts_S128x64_S128x1x64 : S128x64.ShapeCasts S128x1x64
  shapeCasts_S190x64_S1x190x64 : S190x64.ShapeCasts S1x190x64
  broadcasts_S128x1x64_S128x190x64 : S128x1x64.Broadcasts S128x190x64
  broadcasts_S1x190x64_S128x190x64 : S1x190x64.Broadcasts S128x190x64
  reduces_S128x190x64_S128x190 : S128x190x64.Reduces [2] S128x190
  inb_S128x190_S128x190_0_0 : ∀ a, (![0, 0] : Fin 2 → Nat) a + S128x190.size a ≤ S128x190.size a
  h_S128x190 : 0 < S128x190.numel
  shapeCasts_S8192x190_S8192x19x10 : S8192x190.ShapeCasts S8192x19x10
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S8192x64.size a
  hwx0_0 : ∀ i : grid0.Coords, EltTy.bits .f32 = 32 ∨ (Rect.block (s := S8192x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S8192x64.size a
  hwx0_1 : ∀ i : grid0.Coords, EltTy.bits .f32 = 32 ∨ (Rect.block (s := S8192x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S190x64.size a ≤ S190x64.size a
  hwx0_2 : ∀ i : grid0.Coords, EltTy.bits .f32 = 32 ∨ (Rect.block (s := S190x64) S190x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S190x64.size a ≤ S190x64.size a
  hwx0_3 : ∀ i : grid0.Coords, EltTy.bits .f32 = 32 ∨ (Rect.block (s := S190x64) S190x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x190.size a ≤ S8192x190.size a
  hwx0_4 : ∀ i : grid0.Coords, EltTy.bits .f32 = 32 ∨ (Rect.block (s := S8192x190) S128x190.size (cc0_transform_4 i) (hinb0_4 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S190x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S190x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x190.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S19x10x64 : Shape := ⟨3, ![19, 10, 64]⟩
abbrev S19x10x1x64 : Shape := ⟨4, ![19, 10, 1, 64]⟩
abbrev S1x1x8192x64 : Shape := ⟨4, ![1, 1, 8192, 64]⟩
abbrev S19x10x8192x64 : Shape := ⟨4, ![19, 10, 8192, 64]⟩
abbrev S_ : Shape := ⟨0, ![]⟩
abbrev S19x10x8192 : Shape := ⟨3, ![19, 10, 8192]⟩
abbrev S8192x19x10 : Shape := ⟨3, ![8192, 19, 10]⟩

abbrev nBuf : Space → Nat
  | .hbm => 27
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S19x10x64, .f32⟩
  | .hbm, ⟨3, _⟩ => ⟨S19x10x64, .f32⟩
  | .hbm, ⟨4, _⟩ => ⟨S19x10x1x64, .f32⟩
  | .hbm, ⟨5, _⟩ => ⟨S19x10x1x64, .f32⟩
  | .hbm, ⟨6, _⟩ => ⟨S1x1x8192x64, .f32⟩
  | .hbm, ⟨7, _⟩ => ⟨S19x10x8192x64, .f32⟩
  | .hbm, ⟨8, _⟩ => ⟨S19x10x8192x64, .f32⟩
  | .hbm, ⟨9, _⟩ => ⟨S19x10x8192x64, .f32⟩
  | .hbm, ⟨10, _⟩ => ⟨S19x10x8192x64, .f32⟩
  | .hbm, ⟨11, _⟩ => ⟨S1x1x8192x64, .f32⟩
  | .hbm, ⟨12, _⟩ => ⟨S19x10x8192x64, .f32⟩
  | .hbm, ⟨13, _⟩ => ⟨S19x10x8192x64, .f32⟩
  | .hbm, ⟨14, _⟩ => ⟨S19x10x8192x64, .f32⟩
  | .hbm, ⟨15, _⟩ => ⟨S19x10x8192x64, .f32⟩
  | .hbm, ⟨16, _⟩ => ⟨S19x10x8192x64, .f32⟩
  | .hbm, ⟨17, _⟩ => ⟨S19x10x8192x64, .f32⟩
  | .hbm, ⟨18, _⟩ => ⟨S_, .f32⟩
  | .hbm, ⟨19, _⟩ => ⟨S19x10x8192, .f32⟩
  | .hbm, ⟨20, _⟩ => ⟨S_, .f32⟩
  | .hbm, ⟨21, _⟩ => ⟨S19x10x8192, .f32⟩
  | .hbm, ⟨22, _⟩ => ⟨S19x10x8192, .f32⟩
  | .hbm, ⟨23, _⟩ => ⟨S_, .f32⟩
  | .hbm, ⟨24, _⟩ => ⟨S19x10x8192, .f32⟩
  | .hbm, ⟨25, _⟩ => ⟨S19x10x8192, .f32⟩
  | .hbm, ⟨26, _⟩ => ⟨S8192x19x10, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S19x10x64_S19x10x1x64_0_1_3 : S19x10x64.BroadcastsInDim S19x10x1x64 (![0, 1, 3] : Fin 3 → Fin S19x10x1x64.rank)
  bcast_S8192x64_S1x1x8192x64_2_3 : S8192x64.BroadcastsInDim S1x1x8192x64 (![2, 3] : Fin 2 → Fin S1x1x8192x64.rank)
  bcast_S19x10x1x64_S19x10x8192x64_0_1_2_3 : S19x10x1x64.BroadcastsInDim S19x10x8192x64 (![0, 1, 2, 3] : Fin 4 → Fin S19x10x8192x64.rank)
  bcast_S1x1x8192x64_S19x10x8192x64_0_1_2_3 : S1x1x8192x64.BroadcastsInDim S19x10x8192x64 (![0, 1, 2, 3] : Fin 4 → Fin S19x10x8192x64.rank)
  reducesTo_S19x10x8192x64_S19x10x8192_d3 : S19x10x8192x64.ReducesTo [3] S19x10x8192
  h_S_ : 0 < S_.numel
  bcast_S_S19x10x8192 : S_.BroadcastsInDim S19x10x8192 (![] : Fin 0 → Fin S19x10x8192.rank)
  transposes_S19x10x8192_S8192x19x10_2_0_1 : S19x10x8192.Transposes [2, 0, 1] S8192x19x10

variable [Facts₀]

class Facts : Prop extends Facts₀ where

variable [Facts]
-- ==== Proof.Score.lean ====
/-
  The similarity score of one pixel against one Gaussian prototype, and the two layouts of the table of all scores.

  A pixel has a mean vector x and a variance vector v, a prototype a mean vector μ and a variance vector w, each of
  64 features. The score is

      (−1/2) · ( Σ_k [ (μ_k − x_k)² / (v_k + w_k) + log (v_k + w_k) ] ) / 64

  read on the extended reals: the quotient is the ideal instance's division, the logarithm its logarithm, and the two
  literals are the binary values of −0.5 and of 64. Both programs compute this one expression operand for operand, so
  no algebraic law is ever applied to it, and nothing asks the inputs to be finite.

  There are 8192 pixels and 190 prototypes, the prototypes given as a [19, 10] table of 64-vectors. The scores are laid
  out either [8192, 19, 10] (pixel, class, prototype of the class) or, against the table flattened to 190 rows,
  [8192, 190], where row j of the flat table is entry (c, q) with j = 10·c + q.
-/
import Idealize.ShloMosaic.PureOps.Ideal
import Idealize.ShloMosaic.Lib.ValueIdx

noncomputable section

open scoped BigOperators

namespace Cert.Mls

open Idealize.ShloMosaic Idealize.ShloMosaic.ValueIdx

/-- One feature's term: the squared distance of the means over the summed variances, plus the logarithm of the summed
    variances. -/
def feature (x v μ w : EReal) : EReal := Ideal.div ((μ - x) * (μ - x)) (v + w) + Ideal.log (v + w)

/-- The score of a pixel (x, v) against a prototype (μ, w): minus one half of the mean of the 64 feature terms. -/
def score (x v μ w : Fin 64 → EReal) : EReal :=
  Ideal.ofBits .f32 0xBF000000#32 * Ideal.div (∑ k : Fin 64, feature (x k) (v k) (μ k) (w k)) (Ideal.ofBits .f32 0x42800000#32)

/-- Row `n` of an array of 64-vectors. -/
def row {R : Nat} (A : (⟨2, ![R, 64]⟩ : Shape).Idx → EReal) (n : Fin R) : Fin 64 → EReal := fun k => A (ix2 n k)

/-- Entry `(c, q)` of the [19, 10] table of 64-vectors. -/
def entry (T : (⟨3, ![19, 10, 64]⟩ : Shape).Idx → EReal) (c : Fin 19) (q : Fin 10) : Fin 64 → EReal := fun k => T (ix3 c q k)

/-- The scores of 8192 pixels against a flat table of 190 prototypes, laid out [8192, 190]. -/
def flatScores (X V : (⟨2, ![8192, 64]⟩ : Shape).Idx → EReal) (M W : (⟨2, ![190, 64]⟩ : Shape).Idx → EReal) :
    (⟨2, ![8192, 190]⟩ : Shape).Idx → EReal :=
  fun i => score (row X (i 0)) (row V (i 0)) (row M (i 1)) (row W (i 1))

/-- The scores of 8192 pixels against the [19, 10] table of prototypes, laid out [8192, 19, 10]. -/
def scores (X V : (⟨2, ![8192, 64]⟩ : Shape).Idx → EReal) (M W : (⟨3, ![19, 10, 64]⟩ : Shape).Idx → EReal) :
    (⟨3, ![8192, 19, 10]⟩ : Shape).Idx → EReal :=
  fun i => score (row X (i 0)) (row V (i 0)) (entry M (i 1) (i 2)) (entry W (i 1) (i 2))

end Cert.Mls

end
-- ==== Proof.Reference.lean ====
/-
  The reference computes the table of scores.

  The reference broadcasts the pixels' means and variances along the class and prototype axes and the prototypes' along
  the pixel axis, to [19, 10, 8192, 64]; forms, feature by feature, the squared distance of the means over the summed
  variances plus the logarithm of the summed variances; sums over the 64 features from zero; divides by 64; multiplies by
  −0.5; and transposes [19, 10, 8192] to [8192, 19, 10]. Read at the index (n, c, q) of the result, every broadcast and
  the transpose only select coordinates: the pixel operands are read at (n, k) and the prototype operands at (c, q, k),
  so the entry is the score of pixel n against prototype (c, q). The sum's initial value is the zero word, which is the
  extended real zero.
-/
import proofs.«179848_j4827543240789_1_alg».proof.Proof.Gen.ReferenceIdeal.Read
import proofs.«179848_j4827543240789_1_alg».proof.Proof.Score
import Idealize.ShloMosaic.Lib.ValueIdx
import Idealize.ShloMosaic.PureOps.Ideal.Laws

noncomputable section

open scoped BigOperators

namespace Cert.Mls.Reference

open Cert.ReferenceIdeal Cert.ReferenceIdeal.Read Idealize.ShloMosaic Idealize.ShloMosaic.ValueIdx

/-- The reference's last stage, at the ideal instance, is the table of scores of its four arguments. -/
theorem stage_eq (x0 x1 : (⟨2, ![8192, 64]⟩ : Shape).Idx → EReal) (x2 x3 : (⟨3, ![19, 10, 64]⟩ : Shape).Idx → EReal) :
    val_main_v19 (F := Ideal) x0 x1 x2 x3 = Cert.Mls.scores x0 x1 x2 x3 := by
  funext i
  obtain ⟨n, c, q, rfl⟩ : ∃ (n : Fin 8192) (c : Fin 19) (q : Fin 10), i = ix3 n c q := ⟨i 0, i 1, i 2, eq_ix3 i⟩
  -- where each operand is read, for the feature k of the entry (n, c, q)
  have ePixMean : ∀ k : Fin 64, idx_main_v2 (idx_main_v4 (idx_main_v14 (idx_main_v19 (ix3 n c q)) k)) = ix2 n k := fun k =>
    funext fun a => Fin.ext (by match a with | ⟨0, _⟩ => rfl | ⟨1, _⟩ => rfl)
  have ePixVar : ∀ k : Fin 64, idx_main_v7 (idx_main_v8 (idx_main_v14 (idx_main_v19 (ix3 n c q)) k)) = ix2 n k := fun k =>
    funext fun a => Fin.ext (by match a with | ⟨0, _⟩ => rfl | ⟨1, _⟩ => rfl)
  have eProtoMean : ∀ k : Fin 64, idx_main_v0 (idx_main_v3 (idx_main_v14 (idx_main_v19 (ix3 n c q)) k)) = ix3 c q k := fun k =>
    funext fun a => Fin.ext (by match a with | ⟨0, _⟩ => rfl | ⟨1, _⟩ => rfl | ⟨2, _⟩ => rfl)
  have eProtoVar : ∀ k : Fin 64, idx_main_v1 (idx_main_v9 (idx_main_v14 (idx_main_v19 (ix3 n c q)) k)) = ix3 c q k := fun k =>
    funext fun a => Fin.ext (by match a with | ⟨0, _⟩ => rfl | ⟨1, _⟩ => rfl | ⟨2, _⟩ => rfl)
  rw [val_main_v19_apply, val_main_v18_apply, val_main_v17_apply, val_main_cst_1_apply, val_main_v16_apply,
    val_main_v15_apply, val_main_cst_0_apply, val_main_v14_apply, val_main_cst_apply]
  simp only [val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, ePixMean, ePixVar, eProtoMean, eProtoVar,
    Ideal.mulf_def, Ideal.hostDivf_def, Ideal.addf_def, Ideal.subf_def, Ideal.hostUnary_log_def, Ideal.ofBits_def,
    Ideal.ofBits_zero_f32, zero_add]
  rfl

end Cert.Mls.Reference

end
-- ==== Proof.Payload.lean ====
/-
  What the kernel body stores, entry by entry.

  At one grid point the body holds a block of 128 pixels (means and variances, [128, 64]) and the whole flat table of
  190 prototypes (means and variances, [190, 64]). It views the pixel blocks as [128, 1, 64] and the prototype blocks
  as [1, 190, 64], broadcasts all four to [128, 190, 64], forms feature by feature the squared distance of the means
  over the summed variances plus the logarithm of the summed variances, sums over the last axis, divides by 64 and
  multiplies by −0.5. The entry (p, j) of what it stores is therefore the score of the block's pixel p against the
  table's prototype j: at (p, j, k) a broadcast pixel operand reads (p, k) and a broadcast prototype operand (j, k),
  and the sum over the last axis is the sum over the 64 features.
-/
import proofs.«179848_j4827543240789_1_alg».proof.Proof.Gen.KernelIdeal.Skeleton
import proofs.«179848_j4827543240789_1_alg».proof.Proof.Score
import Idealize.ShloMosaic.Lib.Pipeline.Value
import Idealize.ShloMosaic.Lib.ValueIdx
import Idealize.ShloMosaic.PureOps.Ideal.Laws

noncomputable section

open scoped BigOperators

namespace Cert.Mls.Body

open Cert.KernelIdeal Cert.KernelIdeal.Gen Idealize.ShloMosaic Idealize.ShloMosaic.ValueIdx

/-- A [128, 64] block viewed [128, 1, 64] and broadcast to [128, 190, 64] reads, at (p, j, k), the block at (p, k):
    the middle axis is the new one, and the view keeps the row-major position. -/
theorem pixelOperand_apply {α : Type} (y : (⟨2, ![128, 64]⟩ : Shape).Idx → α)
    (hc : (⟨2, ![128, 64]⟩ : Shape).ShapeCasts ⟨3, ![128, 1, 64]⟩)
    (hb : (⟨3, ![128, 1, 64]⟩ : Shape).Broadcasts ⟨3, ![128, 190, 64]⟩) (p : Fin 128) (j : Fin 190) (k : Fin 64) :
    broadcastTo ⟨3, ![128, 190, 64]⟩ (shapeCast ⟨3, ![128, 1, 64]⟩ y hc) hb (ix3 p j k) = y (ix2 p k) := by
  refine (broadcastTo_apply _ hb (ix3 p j k) (ix3 p (0 : Fin 1) k) (fun a => ?_)).trans ?_
  · match a with
    | ⟨0, _⟩ => show p.val = if (128 : Nat) = 1 then 0 else p.val; rw [if_neg (by decide)]
    | ⟨1, _⟩ => show 0 = if (1 : Nat) = 1 then 0 else j.val; rw [if_pos rfl]
    | ⟨2, _⟩ => show k.val = if (64 : Nat) = 1 then 0 else k.val; rw [if_neg (by decide)]
  · refine shapeCast_apply y hc (ix3 p (0 : Fin 1) k) (ix2 p k) ?_
    rw [Shape.rowMajor_val_two, Shape.rowMajor_val_three]
    show p.val * 64 + k.val = (p.val * 1 + 0) * 64 + k.val
    omega

/-- A [190, 64] table viewed [1, 190, 64] and broadcast to [128, 190, 64] reads, at (p, j, k), the table at (j, k):
    the leading axis is the new one. (The body first views the table at its own shape, which changes nothing.) -/
theorem protoOperand_apply {α : Type} (y : (⟨2, ![190, 64]⟩ : Shape).Idx → α)
    (hs : (⟨2, ![190, 64]⟩ : Shape).ShapeCasts ⟨2, ![190, 64]⟩)
    (hc : (⟨2, ![190, 64]⟩ : Shape).ShapeCasts ⟨3, ![1, 190, 64]⟩)
    (hb : (⟨3, ![1, 190, 64]⟩ : Shape).Broadcasts ⟨3, ![128, 190, 64]⟩) (p : Fin 128) (j : Fin 190) (k : Fin 64) :
    broadcastTo ⟨3, ![128, 190, 64]⟩ (shapeCast ⟨3, ![1, 190, 64]⟩ (shapeCast ⟨2, ![190, 64]⟩ y hs) hc) hb (ix3 p j k)
      = y (ix2 j k) := by
  rw [shapeCast_self]
  refine (broadcastTo_apply _ hb (ix3 p j k) (ix3 (0 : Fin 1) j k) (fun a => ?_)).trans ?_
  · match a with
    | ⟨0, _⟩ => show 0 = if (1 : Nat) = 1 then 0 else p.val; rw [if_pos rfl]
    | ⟨1, _⟩ => show j.val = if (190 : Nat) = 1 then 0 else j.val; rw [if_neg (by decide)]
    | ⟨2, _⟩ => show k.val = if (64 : Nat) = 1 then 0 else k.val; rw [if_neg (by decide)]
  · refine shapeCast_apply y hc (ix3 (0 : Fin 1) j k) (ix2 j k) ?_
    rw [Shape.rowMajor_val_two, Shape.rowMajor_val_three]
    show j.val * 64 + k.val = (0 * 190 + j.val) * 64 + k.val
    omega

/-- The sum over the last axis of a [128, 190, 64] vector, from the zero accumulator, read at (p, j): the sum over the
    64 features of the vector at (p, j, k). -/
theorem featureSum_apply (src : FVec Ideal (⟨3, ![128, 190, 64]⟩ : Shape) .f32)
    (h : (⟨3, ![128, 190, 64]⟩ : Shape).Reduces [2] ⟨2, ![128, 190]⟩) (hφ : FKind.Formats .f32)
    (hacc : (0x00000000#32 : BitVec 32) = FKind.add.neutral .f32 hφ) (p : Fin 128) (j : Fin 190) :
    multiReduction .add [2] ⟨2, ![128, 190]⟩ src 0x00000000#32 h hφ hacc (ix2 p j) = ∑ k : Fin 64, src (ix3 p j k) :=
  (Ideal.multiReduction_add_single src _ h hφ hacc (ix2 p j)).trans
    (Finset.sum_congr rfl fun k _ => congrArg src (funext fun a => Fin.ext (by
      match a with | ⟨0, _⟩ => rfl | ⟨1, _⟩ => rfl | ⟨2, _⟩ => rfl)))

/-- The logarithm of a vector at an index is the ideal instance's logarithm of the element. -/
theorem vecLog_apply {s : Shape} (x : FVec Ideal s .f32) (i : s.Idx) : log x i = Ideal.log (x i) := rfl

/-- THE PAYLOAD AT (p, j): the score of pixel p of the pixel blocks against prototype j of the table blocks. -/
theorem payload_apply (x0 x1 : (⟨2, ![128, 64]⟩ : Shape).Idx → EReal) (x2 x3 : (⟨2, ![190, 64]⟩ : Shape).Idx → EReal)
    (p : Fin 128) (j : Fin 190) :
    k0_pay1 (F := Ideal) x0 x1 x2 x3 (ix2 p j)
      = Cert.Mls.score (Cert.Mls.row x0 p) (Cert.Mls.row x1 p) (Cert.Mls.row x2 j) (Cert.Mls.row x3 j) := by
  unfold k0_pay1
  dsimp only
  refine (mulf_apply _ _ _).trans ?_
  unfold Cert.Mls.score
  refine congrArg₂ (· * ·) rfl ?_
  refine (divf_apply _ _ _).trans ?_
  refine congrArg₂ Ideal.div ?_ rfl
  refine (featureSum_apply _ _ _ _ p j).trans (Finset.sum_congr rfl fun k _ => ?_)
  simp only [addf_apply, divf_apply, mulf_apply, subf_apply, vecLog_apply, pixelOperand_apply, protoOperand_apply]
  rfl

end Cert.Mls.Body

end
-- ==== Proof.Flatten.lean ====
/-
  The two layouts of the table of scores hold the same scores.

  Row j = 10·c + q of the prototype table flattened to [190, 64] is entry (c, q) of the [19, 10] table, and entry
  (n, c, q) of the [8192, 19, 10] layout sits at (n, 10·c + q) of the [8192, 190] layout: in both cases the two indices
  have the same row-major position. So the [8192, 190] scores against the flattened tables, viewed [8192, 19, 10], are
  the scores against the [19, 10] tables. Also here: the scores of a block of pixels, whose rows are rows of the
  whole arrays, are the corresponding entries of the whole table of scores.
-/
import proofs.«179848_j4827543240789_1_alg».proof.Proof.Score
import Idealize.ShloMosaic.Lib.Pipeline.Value
import Idealize.ShloMosaic.Lib.ValueIdx

noncomputable section

open scoped BigOperators

namespace Cert.Mls

open Idealize.ShloMosaic Idealize.ShloMosaic.ValueIdx

/-- Row `10·c + q` of the flattened table is entry `(c, q)` of the table. -/
theorem row_flatten (T : (⟨3, ![19, 10, 64]⟩ : Shape).Idx → EReal)
    (h : (⟨3, ![19, 10, 64]⟩ : Shape).ShapeCasts ⟨2, ![190, 64]⟩) (c : Fin 19) (q : Fin 10)
    (hj : 10 * c.val + q.val < 190) :
    row (shapeCast ⟨2, ![190, 64]⟩ T h) (⟨10 * c.val + q.val, hj⟩ : Fin 190) = entry T c q := by
  funext k
  unfold row entry
  refine shapeCast_apply T h (ix2 (⟨10 * c.val + q.val, hj⟩ : Fin 190) k) (ix3 c q k) ?_
  rw [Shape.rowMajor_val_two, Shape.rowMajor_val_three]
  show (c.val * 10 + q.val) * 64 + k.val = (10 * c.val + q.val) * 64 + k.val
  omega

/-- The flat scores against the flattened tables, viewed [8192, 19, 10], are the scores against the tables. -/
theorem scores_of_flat (X V : (⟨2, ![8192, 64]⟩ : Shape).Idx → EReal) (M W : (⟨3, ![19, 10, 64]⟩ : Shape).Idx → EReal)
    (h1 : (⟨3, ![19, 10, 64]⟩ : Shape).ShapeCasts ⟨2, ![190, 64]⟩)
    (h2 : (⟨2, ![8192, 190]⟩ : Shape).ShapeCasts ⟨3, ![8192, 19, 10]⟩) :
    shapeCast ⟨3, ![8192, 19, 10]⟩
        (flatScores X V (shapeCast ⟨2, ![190, 64]⟩ M h1) (shapeCast ⟨2, ![190, 64]⟩ W h1)) h2
      = scores X V M W := by
  funext i
  obtain ⟨n, c, q, rfl⟩ : ∃ (n : Fin 8192) (c : Fin 19) (q : Fin 10), i = ix3 n c q := ⟨i 0, i 1, i 2, eq_ix3 i⟩
  have hj : 10 * c.val + q.val < 190 := by have := c.isLt; have := q.isLt; omega
  refine (shapeCast_apply _ h2 (ix3 n c q) (ix2 n (⟨10 * c.val + q.val, hj⟩ : Fin 190)) ?_).trans ?_
  · rw [Shape.rowMajor_val_two, Shape.rowMajor_val_three]
    show n.val * 190 + (10 * c.val + q.val) = (n.val * 19 + c.val) * 10 + q.val
    omega
  · show score (row X n) (row V n) (row (shapeCast ⟨2, ![190, 64]⟩ M h1) (⟨10 * c.val + q.val, hj⟩ : Fin 190))
        (row (shapeCast ⟨2, ![190, 64]⟩ W h1) (⟨10 * c.val + q.val, hj⟩ : Fin 190))
      = score (row X n) (row V n) (entry M c q) (entry W c q)
    rw [row_flatten, row_flatten]

/-- The scores of a block: when row `p` of the pixel blocks is row `n` of the pixel arrays and row `j` of the table
    blocks is row `j'` of the flat tables, the score of the blocks' (p, j) is the flat scores' entry (n, j'). -/
theorem flatScores_of_rows (X V : (⟨2, ![8192, 64]⟩ : Shape).Idx → EReal) (M W : (⟨2, ![190, 64]⟩ : Shape).Idx → EReal)
    (x0 x1 : (⟨2, ![128, 64]⟩ : Shape).Idx → EReal) (x2 x3 : (⟨2, ![190, 64]⟩ : Shape).Idx → EReal)
    (p : Fin 128) (j : Fin 190) (n : Fin 8192) (j' : Fin 190)
    (h0 : ∀ k : Fin 64, x0 (ix2 p k) = X (ix2 n k)) (h1 : ∀ k : Fin 64, x1 (ix2 p k) = V (ix2 n k))
    (h2 : ∀ k : Fin 64, x2 (ix2 j k) = M (ix2 j' k)) (h3 : ∀ k : Fin 64, x3 (ix2 j k) = W (ix2 j' k)) :
    score (row x0 p) (row x1 p) (row x2 j) (row x3 j) = flatScores X V M W (ix2 n j') := by
  show _ = score (row X n) (row V n) (row M j') (row W j')
  rw [show row x0 p = row X n from funext h0, show row x1 p = row V n from funext h1,
    show row x2 j = row M j' from funext h2, show row x3 j = row W j' from funext h3]

end Cert.Mls

end
-- ==== Proof.Blocks.lean ====
/-
  From what each grid point writes back to the whole [8192, 190] array.

  The grid has 64 points. Point t holds rows 128·t … 128·t + 127 of the pixels' means and variances, the whole flat
  prototype tables (their one block, at every point), and writes back rows 128·t … 128·t + 127 of the output. The body's
  one store covers its whole staging buffer, so what point t writes back is the payload, whose entry (p, j) is the score
  of the block's pixel p against prototype j — the score of pixel 128·t + p of the arrays: what t writes back is block t
  of the flat table of scores of the arrays as the region finds them. Every row n lies in the block of point n / 128, so
  the blocks cover the array, and after the run the array is that table.
-/
import proofs.«179848_j4827543240789_1_alg».proof.Proof.Gen.KernelIdeal.Frame
import proofs.«179848_j4827543240789_1_alg».proof.Proof.Payload
import proofs.«179848_j4827543240789_1_alg».proof.Proof.Flatten
import Idealize.ShloMosaic.Lib.Pipeline.Value

noncomputable section

namespace Cert.Mls.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at offset zero on both axes. -/
theorem zeroOffsets : (![0, 0] : Fin 2 → Nat) = fun _ => 0 := funext fun a => by fin_cases a <;> rfl

/-- The index maps over the grid: the pixel windows' row block is the output's, every column block is 0, the prototype
    tables are always at block (0, 0), and the output's row block is at most 63. -/
theorem blockIndices : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 63 :=
  (by decide +kernel : ∀ t : Fin grid0.N, _)

/-- Every row block of the output is some point's. -/
theorem rowBlock_onto : ∀ b : Fin 64, ∃ t : Fin cfg0.N, win0_4.index t = ![b.val, 0] :=
  (by decide +kernel : ∀ b : Fin 64, ∃ t : Fin grid0.N, win0_4.index t = ![b.val, 0])

/-- WHAT POINT `t` WRITES BACK is block `t` of the flat table of scores of the arrays as the region finds them. -/
theorem flushed_eq (c : Dev nD) (t : Fin cfg0.N) :
    (dats m 0 c).flushed 4 t = ((cfg0.win 4).blk t).view.read (Elt Ideal)
      (Cert.Mls.flatScores (V m c main_arg0) (V m c main_arg1) (V m c main_v0) (V m c main_v1)) := by
  show (cfg0.win 4).cut (grid0.coords t) ((dats m 0 c).after 4 t) = _
  rw [after0_4]
  unfold out0_4
  rw [View.canon_unit_zero zeroOffsets]
  simp only [View.ld_unit_zero (S := S128x64) zeroOffsets, View.ld_unit_zero (S := S190x64) zeroOffsets]
  obtain ⟨e00, e01, e10, e11, e20, e21, e30, e31, e41, e4b⟩ := blockIndices t
  funext y
  obtain ⟨p, j, rfl⟩ : ∃ (p : Fin 128) (j : Fin 190), y = ix2 p j := ⟨y 0, y 1, eq_ix2 y⟩
  have hn : win0_4.index t (0 : Fin 2) * 128 + p.val < 8192 := by have := p.isLt; omega
  show k0_pay1 (iblk m c 0 t) (iblk m c 1 t) (iblk m c 2 t) (iblk m c 3 t) (ix2 p j)
    = Cert.Mls.flatScores (V m c main_arg0) (V m c main_arg1) (V m c main_v0) (V m c main_v1)
        (((cfg0.win 4).blk t).view.emb (ix2 p j))
  -- entry (p, j) of the output's block is entry (128·t + p, j) of the array
  have hi : ((cfg0.win 4).blk t).view.emb (ix2 p j)
      = ix2 (⟨win0_4.index t (0 : Fin 2) * 128 + p.val, hn⟩ : Fin 8192) j := by
    funext a; apply Fin.ext
    match a with
    | ⟨0, _⟩ => show win0_4.index t (0 : Fin 2) * 128 + 1 * p.val = win0_4.index t (0 : Fin 2) * 128 + p.val; omega
    | ⟨1, _⟩ => show win0_4.index t (1 : Fin 2) * 190 + 1 * j.val = j.val; omega
  rw [hi]
  refine (Cert.Mls.Body.payload_apply (iblk m c 0 t) (iblk m c 1 t) (iblk m c 2 t) (iblk m c 3 t) p j).trans ?_
  -- row p of each pixel block is row 128·t + p of its array; row j of each table block is row j of its table
  have r0 : ∀ k : Fin 64, iblk m c 0 t (ix2 p k)
      = V m c main_arg0 (ix2 (⟨win0_4.index t (0 : Fin 2) * 128 + p.val, hn⟩ : Fin 8192) k) := fun k => by
    show V m c main_arg0 (((cfg0.win 0).blk t).view.emb (ix2 p k)) = _
    have h : ((cfg0.win 0).blk t).view.emb (ix2 p k)
        = ix2 (⟨win0_4.index t (0 : Fin 2) * 128 + p.val, hn⟩ : Fin 8192) k := by
      funext a; apply Fin.ext
      match a with
      | ⟨0, _⟩ => show win0_0.index t (0 : Fin 2) * 128 + 1 * p.val = win0_4.index t (0 : Fin 2) * 128 + p.val; omega
      | ⟨1, _⟩ => show win0_0.index t (1 : Fin 2) * 64 + 1 * k.val = k.val; omega
    rw [h]
  have r1 : ∀ k : Fin 64, iblk m c 1 t (ix2 p k)
      = V m c main_arg1 (ix2 (⟨win0_4.index t (0 : Fin 2) * 128 + p.val, hn⟩ : Fin 8192) k) := fun k => by
    show V m c main_arg1 (((cfg0.win 1).blk t).view.emb (ix2 p k)) = _
    have h : ((cfg0.win 1).blk t).view.emb (ix2 p k)
        = ix2 (⟨win0_4.index t (0 : Fin 2) * 128 + p.val, hn⟩ : Fin 8192) k := by
      funext a; apply Fin.ext
      match a with
      | ⟨0, _⟩ => show win0_1.index t (0 : Fin 2) * 128 + 1 * p.val = win0_4.index t (0 : Fin 2) * 128 + p.val; omega
      | ⟨1, _⟩ => show win0_1.index t (1 : Fin 2) * 64 + 1 * k.val = k.val; omega
    rw [h]
  have r2 : ∀ k : Fin 64, iblk m c 2 t (ix2 j k) = V m c main_v0 (ix2 j k) := fun k => by
    show V m c main_v0 (((cfg0.win 2).blk t).view.emb (ix2 j k)) = _
    have h : ((cfg0.win 2).blk t).view.emb (ix2 j k) = ix2 j k := by
      funext a; apply Fin.ext
      match a with
      | ⟨0, _⟩ => show win0_2.index t (0 : Fin 2) * 190 + 1 * j.val = j.val; omega
      | ⟨1, _⟩ => show win0_2.index t (1 : Fin 2) * 64 + 1 * k.val = k.val; omega
    rw [h]
  have r3 : ∀ k : Fin 64, iblk m c 3 t (ix2 j k) = V m c main_v1 (ix2 j k) := fun k => by
    show V m c main_v1 (((cfg0.win 3).blk t).view.emb (ix2 j k)) = _
    have h : ((cfg0.win 3).blk t).view.emb (ix2 j k) = ix2 j k := by
      funext a; apply Fin.ext
      match a with
      | ⟨0, _⟩ => show win0_3.index t (0 : Fin 2) * 190 + 1 * j.val = j.val; omega
      | ⟨1, _⟩ => show win0_3.index t (1 : Fin 2) * 64 + 1 * k.val = k.val; omega
    rw [h]
  exact Cert.Mls.flatScores_of_rows (V m c main_arg0) (V m c main_arg1) (V m c main_v0) (V m c main_v1)
    (iblk m c 0 t) (iblk m c 1 t) (iblk m c 2 t) (iblk m c 3 t) p j _ j r0 r1 r2 r3

/-- An index of the array is in point `t`'s block iff each coordinate is in the block's range on its axis. -/
theorem mem_blk (t : Fin cfg0.N) (i : S8192x190.Idx) :
    i ∈ ((cfg0.win 4).blk t).view.set ↔ ∀ a : Fin 2, win0_4.index t a * S128x190.size a ≤ (i a).val
      ∧ (i a).val < win0_4.index t a * S128x190.size a + S128x190.size a := by
  show i ∈ ((View.whole main_v2).slice (win0_4.rect t)).set ↔ _
  rw [View.set_slice_whole, Rect.mem_set_unit]
  exact Iff.rfl

/-- Every index of the array is in the block of a point that writes back: row n in that of the point with row block
    n / 128. -/
theorem covered (i : S8192x190.Idx) :
    ∃ t : Fin cfg0.N, (cfg0.win 4).flush t = true ∧ i ∈ ((cfg0.win 4).blk t).view.set := by
  have hi0 : (i 0).val < 8192 := (i 0).isLt
  have hi1 : (i 1).val < 190 := (i 1).isLt
  obtain ⟨t, ht⟩ := rowBlock_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 190 ≤ (i 1).val ∧ (i 1).val < win0_4.index t (1 : Fin 2) * 190 + 190
    omega

/-- THE ARRAY after the run: the flat table of scores of the arrays as the region finds them. -/
theorem final (c : Dev nD) : (dats m 0 c).arrAt 4 cfg0.N
    = Cert.Mls.flatScores (V m c main_arg0) (V m c main_arg1) (V m c main_v0) (V m c main_v1) :=
  (dats m 0 c).arrAt_eq_of_cover 4 _ (fun t _ => flushed_eq m c t) covered

end Cert.Mls.Blocks

end
-- ==== Proof.KernelRun.lean ====
/-
  The kernel program's run: its result is the table of scores of its arguments.

  Before the region the program flattens the two [19, 10, 64] prototype tables to [190, 64]; the region leaves the
  [8192, 190] table of scores of the pixels against those flat tables; after the region the program views that array
  [8192, 19, 10]. The pixel arrays reach the region as launched. By the flattening law the result is the [8192, 19, 10]
  table of scores of the four arguments, and every argument ends as launched.
-/
import proofs.«179848_j4827543240789_1_alg».proof.Proof.Gen.KernelIdeal.Frame
import proofs.«179848_j4827543240789_1_alg».proof.Proof.Blocks
import proofs.«179848_j4827543240789_1_alg».proof.Proof.Flatten
import Idealize.ShloMosaic.Lib.StableHlo.Run
import Idealize.ShloMosaic.Lib.Pipeline.Value

noncomputable section

namespace Cert.Mls.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region finds the prototypes' means flattened: the first host line's result. -/
theorem flatMeans (c : Dev nD) : (V m c main_v0 : S190x64.Idx → EReal)
    = shapeCast S190x64 (m ((c : Thread nD τ).loc main_arg2)) shapeCasts_S19x10x64_S190x64 := by
  show StableHlo.after hostOps0 (fun b => m (c, b)) (Proc.devRef .tc main_v0) = _
  after_results
  rfl

/-- The region finds the prototypes' variances flattened: the second host line's result. -/
theorem flatVars (c : Dev nD) : (V m c main_v1 : S190x64.Idx → EReal)
    = shapeCast S190x64 (m ((c : Thread nD τ).loc main_arg3)) shapeCasts_S19x10x64_S190x64 := by
  show StableHlo.after hostOps0 (fun b => m (c, b)) (Proc.devRef .tc main_v1) = _
  after_results
  rfl

/-- After the region's array, the last host line: the result is the [8192, 190] array viewed [8192, 19, 10]. -/
theorem result_view (c : Dev nD) :
    (Pipeline.afterTail₀ cfgs (dats m) 0 (V0 m) [hostOps1] c main_v3 : S8192x19x10.Idx → EReal)
      = shapeCast S8192x19x10 ((dats m 0 c).arrAt 4 cfg0.N) shapeCasts_S8192x190_S8192x19x10 := by
  unfold Pipeline.afterTail₀
  show StableHlo.after hostOps1 _ (Proc.devRef .tc main_v3) = _
  after_results
  rw [Pipeline.withArrays_arr spec0 launch0.win.arr_inj c _ _ 4]
  rfl

/-- THE RESULT: the table of scores of the four arguments as launched. -/
theorem result_eq (c : Dev nD) :
    (Pipeline.afterTail₀ cfgs (dats m) 0 (V0 m) [hostOps1] c main_v3 : S8192x19x10.Idx → EReal)
      = Cert.Mls.scores (m ((c : Thread nD τ).loc main_arg0)) (m ((c : Thread nD τ).loc main_arg1))
          (m ((c : Thread nD τ).loc main_arg2)) (m ((c : Thread nD τ).loc main_arg3)) := by
  rw [result_view, Cert.Mls.Blocks.final, flatMeans, flatVars, V_main_arg0, V_main_arg1]
  exact Cert.Mls.scores_of_flat _ _ _ _ _ _

/-- THE RUN: every weakly fair execution of the kernel program terminates with the result at the table of scores of
    the arguments and the arguments unchanged. -/
theorem run : θ_run defs (onTc (τ := τ) (main (F := Ideal))) ⟨m, fun _ => 0, ρ⟩ fun r => ∀ c : Dev nD,
      r.2.mem ((c.tc : Thread nD τ).loc main_v3)
        = Cert.Mls.scores (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v3 (Pipeline.mem_restRefs_of main_v3 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.Mls.Kernel

end
-- ==== Proof.lean ====
/-
  A pixel-to-prototype similarity kernel and its reference compute the same table of scores.

  For 8192 pixels, each a mean and a variance vector of 64 features, and a [19, 10] table of Gaussian prototypes, each a
  mean and a variance vector, both programs return, laid out [8192, 19, 10],

      score(n, c, q) = (−1/2) · ( Σ_k [ (μ_cqk − x_nk)² / (v_nk + w_cqk) + log (v_nk + w_cqk) ] ) / 64 .

  The kernel flattens the table to 190 rows, computes the [8192, 190] scores 128 pixels at a time, and views the result
  [8192, 19, 10]; the reference broadcasts everything to [19, 10, 8192, 64], reduces, and transposes. On the extended
  reals the two evaluate the same expression operand for operand — the kernel's quotient and logarithm and the host's are
  the ideal instance's, a sum over the last axis from zero is the same sum — and differ only in layout, so the two results
  are equal for all inputs, finite or not: the precondition is not used by the value claim.

  The pieces: `Score` (the expression and the two layouts), `Flatten` (the layouts agree), `Reference` (the reference's
  result is the table), `Payload`, `Blocks` and `KernelRun` (what the kernel body stores, the array the grid leaves, and
  the kernel program's result). The three frames are the generated ones; the idealization rewrote nothing.
-/
import proofs.«179848_j4827543240789_1_alg».proof.Defs
import proofs.«179848_j4827543240789_1_alg».proof.Proof.Gen.Kernel
import proofs.«179848_j4827543240789_1_alg».proof.Proof.Gen.Kernel.Skeleton
import proofs.«179848_j4827543240789_1_alg».proof.Proof.Gen.Kernel.Launch
import proofs.«179848_j4827543240789_1_alg».proof.Proof.Gen.Kernel.Points
import proofs.«179848_j4827543240789_1_alg».proof.Proof.Gen.Kernel.Frame
import proofs.«179848_j4827543240789_1_alg».proof.Proof.Gen.KernelIdeal
import proofs.«179848_j4827543240789_1_alg».proof.Proof.Gen.KernelIdeal.Skeleton
import proofs.«179848_j4827543240789_1_alg».proof.Proof.Gen.KernelIdeal.Launch
import proofs.«179848_j4827543240789_1_alg».proof.Proof.Gen.KernelIdeal.Points
import proofs.«179848_j4827543240789_1_alg».proof.Proof.Gen.KernelIdeal.Frame
import proofs.«179848_j4827543240789_1_alg».proof.Proof.Gen.ReferenceIdeal
import proofs.«179848_j4827543240789_1_alg».proof.Proof.Gen.Pre_finite_inputs
import proofs.«179848_j4827543240789_1_alg».proof.Proof.Gen.ReferenceIdeal.Run
import proofs.«179848_j4827543240789_1_alg».proof.Proof.Gen.ReferenceIdeal.Read
import proofs.«179848_j4827543240789_1_alg».proof.Proof.Reference
import proofs.«179848_j4827543240789_1_alg».proof.Proof.KernelRun
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments, both idealized programs end with the table of scores of those
    arguments as their result. -/
theorem algebraic : Cert.algebraic_KernelIdeal_ReferenceIdeal := by
  intro m ρ m' ρ' _ hagree
  refine ⟨_, Cert.Mls.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Mls.Reference.stage_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
